-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.truncf_extf.Statement Cert.KernelIdeal.S10000x128 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S10000x128 .f32) (main_arg1 : FVec F S10000x10000 .f32) (main_arg2 : FVec F S128x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S10000x128 : Shape := ⟨2, ![10000, 128]⟩
abbrev S10000x10000 : Shape := ⟨2, ![10000, 10000]⟩
abbrev S128x128 : Shape := ⟨2, ![128, 128]⟩
abbrev S10000x256 : Shape := ⟨2, ![10000, 256]⟩
abbrev S400x10000 : Shape := ⟨2, ![400, 10000]⟩
abbrev S400x128 : Shape := ⟨2, ![400, 128]⟩
abbrev S400x256 : Shape := ⟨2, ![400, 256]⟩

abbrev nBuf : Space → Nat
  | .hbm => 5
  | .vmem => 8
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S10000x256, .bf16⟩
  | .hbm, ⟨4, _⟩ => ⟨S10000x128, .f32⟩
  | .local _ .vmem, ⟨0, _⟩ => ⟨S10000x128, .f32⟩
  | .local _ .vmem, ⟨1, _⟩ => ⟨S128x128, .f32⟩
  | .local _ .vmem, ⟨2, _⟩ => ⟨S10000x256, .bf16⟩
  | .local _ .vmem, ⟨3, _⟩ => ⟨S400x10000, .f32⟩
  | .local _ .vmem, ⟨4, _⟩ => ⟨S400x10000, .f32⟩
  | .local _ .vmem, ⟨5, _⟩ => ⟨S10000x256, .bf16⟩
  | .local _ .vmem, ⟨6, _⟩ => ⟨S400x128, .f32⟩
  | .local _ .vmem, ⟨7, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg2_1 : Ref sig .tc := ⟨.vmem, 7, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem2_1 : DmaSem sig := 7

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10000x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S400x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  concatenates_S10000x128_S10000x128_S10000x256_d1 : Shape.Concatenates [S10000x128, S10000x128] S10000x256 1
  inb_S10000x256_S10000x256_0_0 : ∀ a, (![0, 0] : Fin 2 → Nat) a + S10000x256.size a ≤ S10000x256.size a
  h_S10000x256 : 0 < S10000x256.numel
  packedbf16_S10000x256_S10000x256_0_0 : (Rect.unit (s := S10000x256) ![0, 0] S10000x256.size inb_S10000x256_S10000x256_0_0).PackedRows (EltTy.packing .bf16)
  inb_S400x10000_S400x10000_0_0 : ∀ a, (![0, 0] : Fin 2 → Nat) a + S400x10000.size a ≤ S400x10000.size a
  h_S400x10000 : 0 < S400x10000.numel
  shapeCasts_S10000x256_S10000x256 : S10000x256.ShapeCasts S10000x256
  slices_S400x256_o0_0_S400x128 : S400x256.Slices ![0, 0] S400x128
  slices_S400x256_o0_128_S400x128 : S400x256.Slices ![0, 128] S400x128
  inb_S400x128_S400x128_0_0 : ∀ a, (![0, 0] : Fin 2 → Nat) a + S400x128.size a ≤ S400x128.size a
  h_S400x128 : 0 < S400x128.numel
  dot_S10000x128_S128x128_S10000x128_1_0_0_1_n_n_wf : DotDims.WF S10000x128 S128x128 S10000x128 [1] [0] [0] [1] [] []
  dot_S400x10000_S10000x256_S400x256_1_0_0_1_n_n_wf : DotDims.WF S400x10000 S10000x256 S400x256 [1] [0] [0] [1] [] []
  hstage0_0 : ∀ j, (stage0_0 j).IsWhole
  hstage0_1 : ∀ j, (stage0_1 j).IsWhole
  hstage0_2 : ∀ j, (stage0_2 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x256.size a ≤ S10000x256.size a
  hwx1_1 : ∀ i : grid1.Coords, EltTy.bits .bf16 = 32 ∨ (Rect.block (s := S10000x256) S10000x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S400x128.size a ≤ S10000x128.size a
  hwx1_2 : ∀ i : grid1.Coords, EltTy.bits .f32 = 32 ∨ (Rect.block (s := S10000x128) S400x128.size (cc1_transform_2 i) (hinb1_2 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x10000_S10000x256_S400x256_1_0_0_1_n_n : DotDims S400x10000 S10000x256 S400x256 where
  lhsContracting := [1]
  rhsContracting := [0]
  lhsNonContracting := [0]
  rhsNonContracting := [1]
  lhsBatch := []
  rhsBatch := []
  wf := dot_S400x10000_S10000x256_S400x256_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg2) false false (stage0_1 0) (sem0_1 0) (Memref.isWhole_whole _) (hstage0_1 0)

abbrev win0_2 : Pipeline.Window sig grid0 :=
  Pipeline.Window.whole (Memref.whole main_v0) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S10000x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S400x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩

abbrev nBuf : Space → Nat
  | .hbm => 5
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S10000x128, .f32⟩
  | .hbm, ⟨4, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]

class Facts₀ : Prop where
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.Spec.lean ====
/-
  What both programs compute, as one function of the three argument arrays.

  `x` is the node-feature matrix (10000 × 128), `w` the weight matrix (128 × 128), `a` the adjacency
  matrix (10000 × 10000). The SUPPORT is the product `x · w`; the result is `a · (x · w)`, the inner
  product taken first:   result (r, q) = ∑ k, a (r, k) · (∑ l, x (k, l) · w (l, q)).
  Everything is over the extended reals; no order of summation is changed anywhere, so nothing here needs
  the entries to be finite.
-/
import Idealize.ShloMosaic.Lib.ValueIdx
import Idealize.ShloMosaic.PureOps.Ideal

noncomputable section

namespace Gcn.Spec

open Idealize.ShloMosaic Idealize.ShloMosaic.ValueIdx

abbrev Sx : Shape := ⟨2, ![10000, 128]⟩
abbrev Sa : Shape := ⟨2, ![10000, 10000]⟩
abbrev Sw : Shape := ⟨2, ![128, 128]⟩

/-- Entry `(k, q)` of the support `x · w`. -/
def support (x : Sx.Idx → EReal) (w : Sw.Idx → EReal) (k : Fin 10000) (q : Fin 128) : EReal :=
  ∑ l : Fin 128, x (ix2 k l) * w (ix2 l q)

/-- Entry `(r, q)` of `a · (x · w)`. -/
def resultAt (x : Sx.Idx → EReal) (a : Sa.Idx → EReal) (w : Sw.Idx → EReal) (r : Fin 10000) (q : Fin 128) : EReal :=
  ∑ k : Fin 10000, a (ix2 r k) * support x w k q

/-- The result array. -/
def result (x : Sx.Idx → EReal) (a : Sa.Idx → EReal) (w : Sw.Idx → EReal) : Sx.Idx → EReal :=
  fun i => resultAt x a w (i 0) (i 1)

end Gcn.Spec

end
-- ==== Proof.RefValue.lean ====
/-
  The reference computes the specification: its two `dot_general`s, read at an index, are the two nested
  sums of `Gcn.Spec.result` — the same factors in the same order, so the step is a renaming of indices.
-/
import proofs.«151394_g64776696758729_cont_9to1_m_1304_18_alg».proof.Proof.Gen.ReferenceIdeal.Read
import proofs.«151394_g64776696758729_cont_9to1_m_1304_18_alg».proof.Proof.Spec

noncomputable section

namespace Cert.ReferenceIdeal.RefValue

open Cert.ReferenceIdeal Cert.ReferenceIdeal.Read Idealize.ShloMosaic Idealize.ShloMosaic.ValueIdx

/-- The reference's result term is `a · (x · w)`, index by index. -/
theorem result_eq (x0 : (⟨S10000x128, .f32⟩ : BufTy).Contents (Elt Ideal)) (x1 : (⟨S10000x10000, .f32⟩ : BufTy).Contents (Elt Ideal))
    (x2 : (⟨S128x128, .f32⟩ : BufTy).Contents (Elt Ideal)) :
    val_main_v1 (F := Ideal) x0 x1 x2 = Gcn.Spec.result x0 x1 x2 := by
  funext i
  rw [val_main_v1_apply]
  unfold Gcn.Spec.result Gcn.Spec.resultAt
  refine Finset.sum_congr rfl fun k _ => ?_
  rw [val_main_v0_apply]
  unfold Gcn.Spec.support
  have e1 : lidx_main_v1 i k = ix2 (i 0) k :=
    funext fun a => Fin.ext (by match a with | ⟨0, _⟩ => rfl | ⟨1, _⟩ => rfl)
  rw [e1]
  refine congrArg (x1 (ix2 (i 0) k) * ·) (Finset.sum_congr rfl fun l _ => ?_)
  have e2 : lidx_main_v0 (ridx_main_v1 i k) l = ix2 k l :=
    funext fun a => Fin.ext (by match a with | ⟨0, _⟩ => rfl | ⟨1, _⟩ => rfl)
  have e3 : ridx_main_v0 (ridx_main_v1 i k) l = ix2 l (i 1) :=
    funext fun a => Fin.ext (by match a with | ⟨0, _⟩ => rfl | ⟨1, _⟩ => rfl)
  rw [e2, e3]
  rfl

end Cert.ReferenceIdeal.RefValue

end
-- ==== Proof.Algebra.lean ====
/-
  Extended-real algebra behind the two-column matrix product.

  A finite number `s` is split as the pair `(s, s - s)`: the second half is exactly zero. A row of any
  extended reals `a` multiplied into both halves and the two products added gives back the product with
  `s` alone:  `∑ a k · s k + ∑ a k · (s k - s k) = ∑ a k · s k`. Only the `s k` need to be finite
  (`⊤ - ⊤` is not zero); the row `a` may hold infinities, since `x · 0 = 0` for every extended real `x`.
  A sum of products of finite numbers is finite, which is where the `s k` come from.
-/
import Mathlib.Data.EReal.Operations
import Mathlib.Algebra.BigOperators.Group.Finset.Basic

namespace Gcn.Algebra

open scoped BigOperators

/-- An extended real that is a real number. -/
def IsReal (x : EReal) : Prop := ∃ r : ℝ, x = (r : EReal)

theorem isReal_coe (r : ℝ) : IsReal (r : EReal) := ⟨r, rfl⟩

/-- A finite sum of coerced reals is the coerced sum. -/
theorem sum_coe {ι : Type*} (s : Finset ι) (f : ι → ℝ) :
    ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- A sum of products of real numbers is a real number. -/
theorem isReal_sum_mul {ι : Type*} [Fintype ι] (x w : ι → EReal) (hx : ∀ k, IsReal (x k)) (hw : ∀ k, IsReal (w k)) :
    IsReal (∑ k, x k * w k) := by
  choose f hf using hx
  choose g hg using hw
  refine ⟨∑ k, f k * g k, ?_⟩
  rw [← sum_coe]
  exact Finset.sum_congr rfl fun k _ => by rw [hf k, hg k, EReal.coe_mul]

/-- A real number less itself is zero (false at the infinities). -/
theorem sub_self_of_isReal {s : EReal} (h : IsReal s) : s - s = 0 := by
  obtain ⟨r, rfl⟩ := h
  exact EReal.sub_self (EReal.coe_ne_top r) (EReal.coe_ne_bot r)

/-- The product of a row with the pair `(s, s - s)`, its two halves added, is the product with `s`. -/
theorem sum_mul_add_sum_mul_sub_self {ι : Type*} [Fintype ι] (a s : ι → EReal) (hs : ∀ k, IsReal (s k)) :
    ∑ k, a k * s k + ∑ k, a k * (s k - s k) = ∑ k, a k * s k := by
  have hz : ∑ k, a k * (s k - s k) = 0 :=
    Finset.sum_eq_zero fun k _ => by rw [sub_self_of_isReal (hs k), mul_zero]
  rw [hz, add_zero]

end Gcn.Algebra
-- ==== Proof.Finite.lean ====
/-
  What the precondition says: every entry of the three argument arrays is a real number.

  The precondition is the conjunction of three tests, one per array: "every entry's absolute value is
  below +∞". On the extended reals `|x| = max x (-x)`, and this is below `⊤` exactly when `x` is neither
  `⊤` nor `⊥`, that is, when `x` is a real number.
-/
import proofs.«151394_g64776696758729_cont_9to1_m_1304_18_alg».proof.Pre_finite_inputs
import proofs.«151394_g64776696758729_cont_9to1_m_1304_18_alg».proof.Proof.Gen.Pre_finite_inputs
import proofs.«151394_g64776696758729_cont_9to1_m_1304_18_alg».proof.Proof.Algebra
import Idealize.ShloMosaic.Lib.ReduceAll
import Idealize.ShloMosaic.Lib.ValueIdx
import Idealize.ShloMosaic.PureOps.Ideal

noncomputable section

namespace Cert.Pre_finite_inputs.Finite

open Idealize.ShloMosaic Cert.Pre_finite_inputs Gcn.Algebra

instance : Subsingleton S_.Idx := ⟨fun a b => funext fun d => d.elim0⟩

/-- The pattern the tests compare against denotes `+∞`. -/
theorem ofBits_inf : Ideal.ofBits .f32 0x7F800000#32 = ⊤ := by simp [Ideal.ofBits, Ideal.ieee]

/-- An extended real whose absolute value is below `+∞` is a real number. -/
theorem isReal_of_abs_lt_inf (x : EReal)
    (h : Ideal.cmp .olt (max x (-x)) (Ideal.ofBits .f32 0x7F800000#32) = 1#1) : IsReal x := by
  rw [ofBits_inf] at h
  induction x using EReal.rec with
  | bot => exact absurd h (by simp [Ideal.cmp])
  | top => exact absurd h (by simp [Ideal.cmp])
  | coe r => exact ⟨r, rfl⟩

/-- The precondition at the extended reals: all three arrays hold real numbers only. -/
theorem of_pre (a0 : FVec Ideal S10000x128 .f32) (a1 : FVec Ideal S10000x10000 .f32) (a2 : FVec Ideal S128x128 .f32)
    (h : fn (F := Ideal) a0 a1 a2 = fun _ => 1#1) :
    (∀ i, IsReal (a0 i)) ∧ (∀ i, IsReal (a1 i)) ∧ (∀ i, IsReal (a2 i)) := by
  have h0 := congrFun h ValueIdx.ix0
  dsimp only [fn] at h0
  obtain ⟨h01, h2⟩ := IntOp.andi_eq_one.1 h0
  obtain ⟨h0', h1⟩ := IntOp.andi_eq_one.1 h01
  exact ⟨fun i => isReal_of_abs_lt_inf _ (Host.reduce_andi_all _ _ _ _ _ h0' i),
    fun i => isReal_of_abs_lt_inf _ (Host.reduce_andi_all _ _ _ _ _ h1 i),
    fun i => isReal_of_abs_lt_inf _ (Host.reduce_andi_all _ _ _ _ _ h2 i)⟩

end Cert.Pre_finite_inputs.Finite

end
-- ==== Proof.ResultRun.lean ====
/-
  The kernel's run with its result array named.

  The program is two pallas_calls in sequence and nothing else: the first writes the intermediate array
  (the support pair), the second reads it and writes the result. Every weakly fair execution of it
  terminates without a fault, the three argument arrays end as launched, and the RESULT array ends at what
  the second call's write-backs leave, block after block, from the contents the first call left behind:
  `Gen.W2` at the result's buffer. The statement holds at every float instance; the value modules read the
  right-hand side at the extended reals.
-/
import proofs.«151394_g64776696758729_cont_9to1_m_1304_18_alg».proof.Proof.Gen.KernelIdeal.Frame

set_option maxRecDepth 16384

noncomputable section

namespace Cert.KernelIdeal.ResultRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting; the result array holds the second call's
    exit contents and the argument arrays are as launched. -/
theorem run : θ_run defs (onTc (τ := τ) (main (F := F))) ⟨m, fun _ => 0, ρ⟩ (fun r => ∀ c : Dev nD,
      r.2.mem ((c.tc : Thread nD τ).loc main_v1) = W2 m ρ c (Proc.devRef .tc main_v1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨h c _ (mem_uc main_v1 (by decide)),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c)⟩)

end Cert.KernelIdeal.ResultRun

end
-- ==== Proof.SupportValue.lean ====
/-
  What the first pallas_call leaves in the intermediate array.

  The call has no grid: one point, each window the whole of its array. Its body forms the support
  `s = x · w` (a matrix product into a zero accumulator, at the extended reals the plain sum of
  products), and stores the 10000 × 256 array whose left half is `s` and whose right half is `s - s`
  (the narrowing and widening of the float format are the identity at the extended reals, so the
  "rounding residual" is literally `s - s`). This module states that array as one function `pair` of the
  two argument arrays, reads the body's stored value at an index, and concludes that the array after the
  call IS `pair` of the arrays the call found.
-/
import proofs.«151394_g64776696758729_cont_9to1_m_1304_18_alg».proof.Proof.Gen.KernelIdeal.Frame
import proofs.«151394_g64776696758729_cont_9to1_m_1304_18_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.SupportValue

open Cert.KernelIdeal Cert.KernelIdeal.Gen Idealize.ShloMosaic Idealize.ShloMosaic.TcCoe Idealize.SL.Sem
open Idealize.ShloMosaic.ValueIdx
open Idealize.ShloMosaic.Pipeline (Dat)

/-! ## The support pair as one function -/

/-- Entry `(k, q)` of the stored pair: the support's entry in the left half, the support's entry less
    itself in the right half. -/
def pairAt (x : S10000x128.Idx → EReal) (w : S128x128.Idx → EReal) (k : Fin 10000) (q : Fin 256) : EReal :=
  if h : q.val < 128 then Gcn.Spec.support x w k ⟨q.val, h⟩
  else Gcn.Spec.support x w k ⟨q.val - 128, by have := q.isLt; omega⟩
        - Gcn.Spec.support x w k ⟨q.val - 128, by have := q.isLt; omega⟩

/-- The stored pair, as an array. -/
def pair (x : S10000x128.Idx → EReal) (w : S128x128.Idx → EReal) : S10000x256.Idx → EReal :=
  fun j => pairAt x w (j 0) (j 1)

/-! ## The body's matrix product at an index -/

/-- The body's product of the two loaded blocks. -/
abbrev prod (x : FVec Ideal S10000x128 .f32) (w : FVec Ideal S128x128 .f32) : FVec Ideal S10000x128 .f32 :=
  matmul dot_S10000x128_S128x128_S10000x128_1_0_0_1_n_n (some .fp32) x w (constant S10000x128 .f32 0x00000000#32)

theorem lhs_0 (i : S10000x128.Idx) (p : dot_S10000x128_S128x128_S10000x128_1_0_0_1_n_n.contr.Idx) :
    (dot_S10000x128_S128x128_S10000x128_1_0_0_1_n_n.lhsIdx i p 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem rhs_1 (i : S10000x128.Idx) (p : dot_S10000x128_S128x128_S10000x128_1_0_0_1_n_n.contr.Idx) :
    (dot_S10000x128_S128x128_S10000x128_1_0_0_1_n_n.rhsIdx i p 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The product at `(k, q)` is the support's entry: the sum over the shared axis of the products. -/
theorem prod_at (x : FVec Ideal S10000x128 .f32) (w : FVec Ideal S128x128 .f32) (k : Fin 10000) (q : Fin 128) :
    prod x w (ix2 k q) = Gcn.Spec.support x w k q := by
  unfold Gcn.Spec.support
  refine (Ideal.matmul_constant_zero_apply dot_S10000x128_S128x128_S10000x128_1_0_0_1_n_n (some .fp32) x w (ix2 k q)).trans ?_
  rw [← Equiv.sum_comp (ValueIdx.contrEquiv1 dot_S10000x128_S128x128_S10000x128_1_0_0_1_n_n 128 rfl rfl).symm]
  refine Finset.sum_congr rfl fun l _ => ?_
  have hl := ValueIdx.contrEquiv1_symm_val dot_S10000x128_S128x128_S10000x128_1_0_0_1_n_n 128 rfl rfl l
  have el : dot_S10000x128_S128x128_S10000x128_1_0_0_1_n_n.lhsIdx (ix2 k q) ((ValueIdx.contrEquiv1 dot_S10000x128_S128x128_S10000x128_1_0_0_1_n_n 128 rfl rfl).symm l) = ix2 k l := funext fun a => Fin.ext (by
    match a with
    | ⟨0, _⟩ => exact lhs_0 _ _
    | ⟨1, _⟩ => exact (dot_S10000x128_S128x128_S10000x128_1_0_0_1_n_n.lhsIdx_val_of_single rfl _ _).trans hl)
  have er : dot_S10000x128_S128x128_S10000x128_1_0_0_1_n_n.rhsIdx (ix2 k q) ((ValueIdx.contrEquiv1 dot_S10000x128_S128x128_S10000x128_1_0_0_1_n_n 128 rfl rfl).symm l) = ix2 l q := funext fun a => Fin.ext (by
    match a with
    | ⟨0, _⟩ => exact (dot_S10000x128_S128x128_S10000x128_1_0_0_1_n_n.rhsIdx_val_of_single rfl _ _).trans hl
    | ⟨1, _⟩ => exact rhs_1 _ _)
  rw [el, er]

/-! ## The stored value at an index -/

/-- The body's stored value at `(k, q)`: left of column 128 the product, from column 128 on the product less
    itself, both at column `q mod 128`. -/
theorem pay_at (x : Vec Ideal S10000x128 .f32) (w : Vec Ideal S128x128 .f32) (k : Fin 10000) (q : Fin 256) :
    k0_pay1 x w (ix2 k q) = pairAt x w k q := by
  unfold k0_pay1
  show concatenate S10000x256 1 [⟨S10000x128, truncf .bf16 (prod x w) bitsLt_bf16_f32⟩,
      ⟨S10000x128, truncf .bf16 (subf (prod x w) (prod x w)) bitsLt_bf16_f32⟩] concatenates_S10000x128_S10000x128_S10000x256_d1 (ix2 k q) = _
  unfold pairAt
  by_cases hq : q.val < 128
  · rw [dif_pos hq]
    refine (concatenate_pair_apply_left (1 : Fin S10000x256.rank) _ _ concatenates_S10000x128_S10000x128_S10000x256_d1 (ix2 k q) rfl
      (ix2 k ⟨q.val, hq⟩) (fun b => by match b with | ⟨0, _⟩ => rfl | ⟨1, _⟩ => rfl)).trans ?_
    exact prod_at x w k ⟨q.val, hq⟩
  · rw [dif_neg hq]
    have hq2 : q.val - 128 < 128 := by have := q.isLt; omega
    refine (concatenate_pair_apply_right (1 : Fin S10000x256.rank) _ _ concatenates_S10000x128_S10000x128_S10000x256_d1 (ix2 k q) rfl rfl
      (ix2 k ⟨q.val - 128, hq2⟩) (fun b hb => by
        match b with
        | ⟨0, _⟩ => rfl
        | ⟨1, _⟩ => exact absurd rfl hb) (by show (q.val - 128) + 128 = q.val; omega)).trans ?_
    show prod x w (ix2 k ⟨q.val - 128, hq2⟩) - prod x w (ix2 k ⟨q.val - 128, hq2⟩) = _
    rw [prod_at]

/-- The body's stored value is the pair of its two loaded blocks. -/
theorem pay_eq (x : Vec Ideal S10000x128 .f32) (w : Vec Ideal S128x128 .f32) : k0_pay1 x w = pair x w :=
  funext fun j => by
    obtain ⟨k, q, rfl⟩ : ∃ (k : Fin 10000) (q : Fin 256), j = ix2 k q := ⟨j 0, j 1, eq_ix2 j⟩
    exact pay_at x w k q

/-! ## From the one block to the array -/

variable (V : (c : Dev nD) → (b : Ref sig .tc) → Buf (Elt Ideal) ((c : Thread nD τ).loc b))

theorem hz : (![0, 0] : Fin 2 → Nat) = fun _ => 0 := funext fun a => by fin_cases a <;> rfl

/-- Every window's block index is zero on both axes at the one point: each block is its whole array. -/
theorem idx_facts : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- The first input block is the feature array as the call finds it. -/
theorem block_x (c : Dev nD) (t : Fin cfg0.N) : iblk0 V c 0 t = V c main_arg0 := by
  obtain ⟨e0, e1, -⟩ := idx_facts t
  funext y
  show V c main_arg0 (((cfg0.win 0).blk t).view.emb y) = V c main_arg0 y
  refine congrArg (V c main_arg0) (funext fun a => Fin.ext ?_)
  match a with
  | ⟨0, _⟩ => show win0_0.index t (0 : Fin 2) * 10000 + 1 * (y 0).val = (y 0).val; omega
  | ⟨1, _⟩ => show win0_0.index t (1 : Fin 2) * 128 + 1 * (y 1).val = (y 1).val; omega

/-- The second input block is the weight array as the call finds it. -/
theorem block_w (c : Dev nD) (t : Fin cfg0.N) : iblk0 V c 1 t = V c main_arg2 := by
  obtain ⟨-, -, e2, e3, -⟩ := idx_facts t
  funext y
  show V c main_arg2 (((cfg0.win 1).blk t).view.emb y) = V c main_arg2 y
  refine congrArg (V c main_arg2) (funext fun a => Fin.ext ?_)
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- Reading a whole array through the output window's one block gives the array back. -/
theorem read_whole (G : S10000x256.Idx → EReal) (t : Fin cfg0.N) :
    (cfg0.win 2).cut (grid0.coords t) G = ((cfg0.win 2).blk t).view.read (Elt Ideal) G := by
  obtain ⟨-, -, -, -, e4, e5⟩ := idx_facts t
  funext j
  show G j = G (((cfg0.win 2).blk t).view.emb j)
  refine congrArg G (funext fun a => Fin.ext ?_)
  match a with
  | ⟨0, _⟩ => show (j 0).val = win0_2.index t (0 : Fin 2) * 10000 + 1 * (j 0).val; omega
  | ⟨1, _⟩ => show (j 1).val = win0_2.index t (1 : Fin 2) * 256 + 1 * (j 1).val; omega

/-- What the one point writes back is the pair of the two arrays the call found. -/
theorem flushed_eq (c : Dev nD) (t : Fin cfg0.N) :
    (dat0 V c).flushed 2 t = ((cfg0.win 2).blk t).view.read (Elt Ideal) (pair (V c main_arg0) (V c main_arg2)) := by
  show (cfg0.win 2).cut (grid0.coords t) ((dat0 V c).after 2 t) = _
  rw [after0_2, block_x, block_w]
  unfold out0_2
  rw [View.canon_unit_zero hz]
  simp only [View.ld_unit_zero (S := S10000x128) hz, View.ld_unit_zero (S := S128x128) hz]
  rw [pay_eq]
  exact read_whole _ t

/-- An index of the array is in the point's block iff each coordinate is in the block's range. -/
theorem mem_blk (t : Fin cfg0.N) (i : S10000x256.Idx) :
    i ∈ ((cfg0.win 2).blk t).view.set ↔ ∀ a : Fin 2, win0_2.index t a * S10000x256.size a ≤ (i a).val ∧ (i a).val < win0_2.index t a * S10000x256.size a + S10000x256.size a := by
  show i ∈ ((View.whole main_v0).slice (win0_2.rect t)).set ↔ _
  rw [View.set_slice_whole, Rect.mem_set_unit]
  exact Iff.rfl

/-- The one block covers the array. -/
theorem cover (i : S10000x256.Idx) :
    ∃ t : Fin cfg0.N, (cfg0.win 2).flush t = true ∧ i ∈ ((cfg0.win 2).blk t).view.set := by
  refine ⟨t0_0, flush0_2 t0_0, ?_⟩
  obtain ⟨-, -, -, -, e4, e5⟩ := idx_facts t0_0
  rw [mem_blk]
  intro a
  match a with
  | ⟨0, _⟩ => show win0_2.index t0_0 (0 : Fin 2) * 10000 ≤ (i 0).val ∧ (i 0).val < win0_2.index t0_0 (0 : Fin 2) * 10000 + 10000; have h0 : (i 0).val < 10000 := (i 0).isLt; omega
  | ⟨1, _⟩ => show win0_2.index t0_0 (1 : Fin 2) * 256 ≤ (i 1).val ∧ (i 1).val < win0_2.index t0_0 (1 : Fin 2) * 256 + 256; have h1 : (i 1).val < 256 := (i 1).isLt; omega

/-- THE INTERMEDIATE ARRAY after the first call: the pair of the arrays the call found. -/
theorem array_eq (c : Dev nD) : (dat0 V c).arrAt 2 cfg0.N = pair (V c main_arg0) (V c main_arg2) :=
  (dat0 V c).arrAt_eq_of_cover 2 _ (fun t _ => flushed_eq V c t) cover

end Cert.KernelIdeal.SupportValue

end
-- ==== Proof.AggValue.lean ====
/-
  What the second pallas_call leaves in the result array.

  The call runs over 25 grid points. Point `t` reads rows `400·t … 400·t + 399` of the adjacency array
  (all 10000 columns) and the whole intermediate array `p` (10000 × 256), multiplies the two into a
  400 × 256 product, and stores the sum of the product's left and right halves (columns `q` and
  `128 + q`) as rows `400·t …` of the result. The widening of `p`'s float format is the identity at the
  extended reals and the product goes into a zero accumulator, so entry `(r, q)` of the result is
      ∑ k, a (r, k) · p (k, q)  +  ∑ k, a (r, k) · p (k, 128 + q),
  one function `agg` of the two arrays the call finds; the 25 blocks tile the result array.
-/
import proofs.«151394_g64776696758729_cont_9to1_m_1304_18_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.AggValue

open Cert.KernelIdeal Cert.KernelIdeal.Gen Idealize.ShloMosaic Idealize.ShloMosaic.TcCoe Idealize.SL.Sem
open Idealize.ShloMosaic.ValueIdx
open Idealize.ShloMosaic.Pipeline (Dat)

/-! ## The result as one function of the adjacency array and the intermediate array -/

/-- Entry `(r, q)` of the result, from row `r` of `a` and columns `q`, `128 + q` of `p`. -/
def aggAt {n : Nat} (a : (⟨2, ![n, 10000]⟩ : Shape).Idx → EReal) (p : S10000x256.Idx → EReal) (r : Fin n) (q : Fin 128) : EReal :=
  ∑ k : Fin 10000, a (ix2 r k) * p (ix2 k ⟨q.val, by have := q.isLt; omega⟩)
    + ∑ k : Fin 10000, a (ix2 r k) * p (ix2 k ⟨128 + q.val, by have := q.isLt; omega⟩)

/-- The result array. -/
def agg (a : S10000x10000.Idx → EReal) (p : S10000x256.Idx → EReal) : S10000x128.Idx → EReal :=
  fun i => aggAt a p (i 0) (i 1)

/-- One point's block of it, from that point's block of the adjacency array. -/
def aggBlock (a : S400x10000.Idx → EReal) (p : S10000x256.Idx → EReal) : S400x128.Idx → EReal :=
  fun j => aggAt a p (j 0) (j 1)

/-- A block entry is the array's entry when the block's row of `a` is the array's row and the columns agree. -/
theorem aggAt_eq_agg (A : S10000x10000.Idx → EReal) (p : S10000x256.Idx → EReal) (a : S400x10000.Idx → EReal)
    (i : S10000x128.Idx) (b : Fin 400) (q : Fin 128) (hq : q.val = (i 1).val)
    (hrow : ∀ k : Fin 10000, a (ix2 b k) = A (ix2 (i 0) k)) :
    aggAt a p b q = agg A p i := by
  unfold agg aggAt
  have e0 : (⟨q.val, by have := q.isLt; omega⟩ : Fin 256) = ⟨(i 1).val, by have h1 : (i 1).val < 128 := (i 1).isLt; omega⟩ := Fin.ext hq
  have e1 : (⟨128 + q.val, by have := q.isLt; omega⟩ : Fin 256) = ⟨128 + (i 1).val, by have h1 : (i 1).val < 128 := (i 1).isLt; omega⟩ :=
    Fin.ext (by show 128 + q.val = 128 + (i 1).val; omega)
  rw [e0, e1]
  exact congrArg₂ (· + ·) (Finset.sum_congr rfl fun k _ => by rw [hrow k]) (Finset.sum_congr rfl fun k _ => by rw [hrow k])

/-! ## The body's matrix product at an index -/

/-- The body's product of the adjacency block with the widened intermediate array. -/
abbrev prod (a : FVec Ideal S400x10000 .f32) (p : FVec Ideal S10000x256 .bf16) : FVec Ideal S400x256 .f32 :=
  matmul dot_S400x10000_S10000x256_S400x256_1_0_0_1_n_n none a (extf .f32 (shapeCast S10000x256 p shapeCasts_S10000x256_S10000x256) bitsLt_bf16_f32) (constant S400x256 .f32 0x00000000#32)

theorem lhs_0 (i : S400x256.Idx) (c : dot_S400x10000_S10000x256_S400x256_1_0_0_1_n_n.contr.Idx) :
    (dot_S400x10000_S10000x256_S400x256_1_0_0_1_n_n.lhsIdx i c 0).val = (i 0).val := by
  unfold DotDims.lhsIdx
  rw [dif_neg (show ¬(0 : Fin S400x10000.rank) ∈ dot_S400x10000_S10000x256_S400x256_1_0_0_1_n_n.lhsBatch by decide), dif_pos (show (0 : Fin S400x10000.rank) ∈ dot_S400x10000_S10000x256_S400x256_1_0_0_1_n_n.lhsNonContracting by decide)]
  rfl
theorem rhs_1 (i : S400x256.Idx) (c : dot_S400x10000_S10000x256_S400x256_1_0_0_1_n_n.contr.Idx) :
    (dot_S400x10000_S10000x256_S400x256_1_0_0_1_n_n.rhsIdx i c 1).val = (i 1).val := by
  unfold DotDims.rhsIdx
  rw [dif_neg (show ¬(1 : Fin S10000x256.rank) ∈ dot_S400x10000_S10000x256_S400x256_1_0_0_1_n_n.rhsBatch by decide), dif_pos (show (1 : Fin S10000x256.rank) ∈ dot_S400x10000_S10000x256_S400x256_1_0_0_1_n_n.rhsNonContracting by decide)]
  rfl

/-- The product at `(b, q)`: the sum over the 10000 shared indices of the products. -/
theorem prod_at (a : FVec Ideal S400x10000 .f32) (p : FVec Ideal S10000x256 .bf16) (b : Fin 400) (q : Fin 256) :
    prod a p (ix2 b q) = ∑ k : Fin 10000, a (ix2 b k) * p (ix2 k q) := by
  refine (Ideal.matmul_constant_zero_apply dot_S400x10000_S10000x256_S400x256_1_0_0_1_n_n none a
    (extf .f32 (shapeCast S10000x256 p shapeCasts_S10000x256_S10000x256) bitsLt_bf16_f32) (ix2 b q)).trans ?_
  rw [← Equiv.sum_comp (ValueIdx.contrEquiv1 dot_S400x10000_S10000x256_S400x256_1_0_0_1_n_n 10000 rfl rfl).symm]
  refine Finset.sum_congr rfl fun k _ => ?_
  have hk := ValueIdx.contrEquiv1_symm_val dot_S400x10000_S10000x256_S400x256_1_0_0_1_n_n 10000 rfl rfl k
  have el : dot_S400x10000_S10000x256_S400x256_1_0_0_1_n_n.lhsIdx (ix2 b q) ((ValueIdx.contrEquiv1 dot_S400x10000_S10000x256_S400x256_1_0_0_1_n_n 10000 rfl rfl).symm k) = ix2 b k := funext fun d => Fin.ext (by
    match d with
    | ⟨0, _⟩ => exact lhs_0 _ _
    | ⟨1, _⟩ => exact (dot_S400x10000_S10000x256_S400x256_1_0_0_1_n_n.lhsIdx_val_of_single rfl _ _).trans hk)
  have er : dot_S400x10000_S10000x256_S400x256_1_0_0_1_n_n.rhsIdx (ix2 b q) ((ValueIdx.contrEquiv1 dot_S400x10000_S10000x256_S400x256_1_0_0_1_n_n 10000 rfl rfl).symm k) = ix2 k q := funext fun d => Fin.ext (by
    match d with
    | ⟨0, _⟩ => exact (dot_S400x10000_S10000x256_S400x256_1_0_0_1_n_n.rhsIdx_val_of_single rfl _ _).trans hk
    | ⟨1, _⟩ => exact rhs_1 _ _)
  rw [el, er]
  show a (ix2 b k) * shapeCast S10000x256 p shapeCasts_S10000x256_S10000x256 (ix2 k q) = _
  rw [shapeCast_self]

/-! ## The stored value at an index -/

/-- Column `q` of the left half of a 400 × 256 array, read through the slice at offset 0. -/
theorem slice_left (y : FVec Ideal S400x256 .f32) (b : Fin 400) (q : Fin 128) (hq0 : q.val < 256) :
    extractStridedSlice S400x128 ![0, 0] y slices_S400x256_o0_0_S400x128 (ix2 b q) = y (ix2 b ⟨q.val, hq0⟩) := by
  unfold extractStridedSlice
  exact congrArg y (funext fun d => Fin.ext (by
    match d with
    | ⟨0, _⟩ => exact Nat.zero_add _
    | ⟨1, _⟩ => exact Nat.zero_add _))

/-- Column `q` of the right half, read through the slice at column offset 128. -/
theorem slice_right (y : FVec Ideal S400x256 .f32) (b : Fin 400) (q : Fin 128) (hq1 : 128 + q.val < 256) :
    extractStridedSlice S400x128 ![0, 128] y slices_S400x256_o0_128_S400x128 (ix2 b q) = y (ix2 b ⟨128 + q.val, hq1⟩) := by
  unfold extractStridedSlice
  exact congrArg y (funext fun d => Fin.ext (by
    match d with
    | ⟨0, _⟩ => exact Nat.zero_add _
    | ⟨1, _⟩ => rfl))

/-- The two halves of a 400 × 256 array added, at `(b, q)`: its entries at columns `q` and `128 + q`. -/
theorem halves_at (y : FVec Ideal S400x256 .f32) (b : Fin 400) (q : Fin 128) :
    addf (extractStridedSlice S400x128 ![0, 0] y slices_S400x256_o0_0_S400x128)
        (extractStridedSlice S400x128 ![0, 128] y slices_S400x256_o0_128_S400x128) (ix2 b q)
      = y (ix2 b ⟨q.val, by have := q.isLt; omega⟩) + y (ix2 b ⟨128 + q.val, by have := q.isLt; omega⟩) :=
  congrArg₂ (· + ·) (slice_left y b q _) (slice_right y b q _)

/-- The body's stored value at `(b, q)`: the product's columns `q` and `128 + q` of row `b`, added. -/
theorem pay_at (a : Vec Ideal S400x10000 .f32) (p : Vec Ideal S10000x256 .bf16) (b : Fin 400) (q : Fin 128) :
    k1_pay1 a p (ix2 b q) = aggAt a p b q := by
  unfold k1_pay1
  refine (halves_at (prod a p) b q).trans ?_
  unfold aggAt
  exact congrArg₂ (· + ·) (prod_at a p b _) (prod_at a p b _)

/-- The body's stored value is the block function of its two loaded blocks. -/
theorem pay_eq (a : Vec Ideal S400x10000 .f32) (p : Vec Ideal S10000x256 .bf16) : k1_pay1 a p = aggBlock a p :=
  funext fun j => by
    obtain ⟨b, q, rfl⟩ : ∃ (b : Fin 400) (q : Fin 128), j = ix2 b q := ⟨j 0, j 1, eq_ix2 j⟩
    exact pay_at a p b q

/-! ## From the 25 blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the adjacency block moves with the output block along the rows and
    sits at column block 0; the intermediate array's block is the whole array; the output's column block is 0
    and its row block is at most 24. -/
theorem idx_facts : ∀ t : Fin cfg1.N, win1_0.index t (0 : Fin 2) = win1_2.index t (0 : Fin 2)
    ∧ win1_0.index t (1 : Fin 2) = 0
    ∧ win1_1.index t (0 : Fin 2) = 0 ∧ win1_1.index t (1 : Fin 2) = 0
    ∧ win1_2.index t (1 : Fin 2) = 0 ∧ win1_2.index t (0 : Fin 2) ≤ 24 :=
  (by decide +kernel : ∀ t : Fin grid1.N, _)

/-- Every row block is some point's. -/
theorem idx_onto : ∀ q0 : Fin 25, ∃ t : Fin cfg1.N, win1_2.index t = ![q0.val, 0] :=
  (by decide +kernel : ∀ q0 : Fin 25, ∃ t : Fin grid1.N, win1_2.index t = ![q0.val, 0])

/-- The second input block is the intermediate array as the call finds it, at every point. -/
theorem block_p (c : Dev nD) (t : Fin cfg1.N) : iblk1 V c 1 t = V c main_v0 := by
  obtain ⟨-, -, e2, e3, -⟩ := idx_facts t
  funext y
  show V c main_v0 (((cfg1.win 1).blk t).view.emb y) = V c main_v0 y
  refine congrArg (V c main_v0) (funext fun a => Fin.ext ?_)
  match a with
  | ⟨0, _⟩ => show win1_1.index t (0 : Fin 2) * 10000 + 1 * (y 0).val = (y 0).val; omega
  | ⟨1, _⟩ => show win1_1.index t (1 : Fin 2) * 256 + 1 * (y 1).val = (y 1).val; omega

/-- What point `t` writes back is block `t` of `agg` of the two arrays the call found. -/
theorem flushed_eq (c : Dev nD) (t : Fin cfg1.N) :
    (dat1 V c).flushed 2 t = ((cfg1.win 2).blk t).view.read (Elt Ideal) (agg (V c main_arg1) (V c main_v0)) := by
  show (cfg1.win 2).cut (grid1.coords t) ((dat1 V c).after 2 t) = _
  rw [after1_2, block_p]
  unfold out1_2
  rw [View.canon_unit_zero hz]
  simp only [View.ld_unit_zero (S := S400x10000) hz, View.ld_unit_zero (S := S10000x256) hz]
  rw [pay_eq]
  obtain ⟨e0, e1, -, -, e4, e5⟩ := idx_facts t
  funext j
  show aggAt (iblk1 V c 0 t) (V c main_v0) (j 0) (j 1) = agg (V c main_arg1) (V c main_v0) (((cfg1.win 2).blk t).view.emb j)
  refine aggAt_eq_agg (V c main_arg1) (V c main_v0) (iblk1 V c 0 t) (((cfg1.win 2).blk t).view.emb j) (j 0) (j 1) ?_ ?_
  · show (j 1).val = win1_2.index t (1 : Fin 2) * 128 + 1 * (j 1).val
    omega
  · intro k
    show V c main_arg1 (((cfg1.win 0).blk t).view.emb (ix2 (j 0) k)) = V c main_arg1 (ix2 ((((cfg1.win 2).blk t).view.emb j) 0) k)
    refine congrArg (V c main_arg1) (funext fun a => Fin.ext ?_)
    match a with
    | ⟨0, _⟩ => show win1_0.index t (0 : Fin 2) * 400 + 1 * (j 0).val = win1_2.index t (0 : Fin 2) * 400 + 1 * (j 0).val; omega
    | ⟨1, _⟩ => show win1_0.index t (1 : Fin 2) * 10000 + 1 * k.val = k.val; omega

/-- An index of the array is in point `t`'s block iff each coordinate is in the block's range. -/
theorem mem_blk (t : Fin cfg1.N) (i : S10000x128.Idx) :
    i ∈ ((cfg1.win 2).blk t).view.set ↔ ∀ a : Fin 2, win1_2.index t a * S400x128.size a ≤ (i a).val ∧ (i a).val < win1_2.index t a * S400x128.size a + S400x128.size a := by
  show i ∈ ((View.whole main_v1).slice (win1_2.rect t)).set ↔ _
  rw [View.set_slice_whole, Rect.mem_set_unit]
  exact Iff.rfl

/-- The 25 blocks cover the array: row `r` is in the block of point `r / 400`. -/
theorem cover (i : S10000x128.Idx) :
    ∃ t : Fin cfg1.N, (cfg1.win 2).flush t = true ∧ i ∈ ((cfg1.win 2).blk t).view.set := by
  have h0 : (i 0).val < 10000 := (i 0).isLt
  have h1 : (i 1).val < 128 := (i 1).isLt
  obtain ⟨t, ht⟩ := idx_onto ⟨(i 0).val / 400, by omega⟩
  have q0 : win1_2.index t (0 : Fin 2) = (i 0).val / 400 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 400 ≤ (i 0).val ∧ (i 0).val < win1_2.index t (0 : Fin 2) * 400 + 400; omega
  | ⟨1, _⟩ => show win1_2.index t (1 : Fin 2) * 128 ≤ (i 1).val ∧ (i 1).val < win1_2.index t (1 : Fin 2) * 128 + 128; omega

/-- THE RESULT ARRAY after the second call: `agg` of the adjacency array and the intermediate array the call found. -/
theorem array_eq (c : Dev nD) : (dat1 V c).arrAt 2 cfg1.N = agg (V c main_arg1) (V c main_v0) :=
  (dat1 V c).arrAt_eq_of_cover 2 _ (fun t _ => flushed_eq V c t) cover

end Cert.KernelIdeal.AggValue

end
-- ==== Proof.Bridge.lean ====
/-
  The two calls composed are the specification, when the features and the weights are finite.

  The second call's function `agg` applied to the adjacency array and to the first call's `pair` of the
  features and the weights is, at entry `(r, q)`,
      ∑ k, a (r, k) · s (k, q)  +  ∑ k, a (r, k) · (s (k, q) - s (k, q)),      s = x · w,
  because column `q` of the pair lies in its left half and column `128 + q` in its right half. Each
  `s (k, q)` is a finite sum of products of real numbers, hence a real number, so `s (k, q) - s (k, q) = 0`
  and the second sum vanishes: what is left is `∑ k, a (r, k) · s (k, q)`, the specification's entry. The
  adjacency entries are not asked to be finite.
-/
import proofs.«151394_g64776696758729_cont_9to1_m_1304_18_alg».proof.Proof.Algebra
import proofs.«151394_g64776696758729_cont_9to1_m_1304_18_alg».proof.Proof.Spec
import proofs.«151394_g64776696758729_cont_9to1_m_1304_18_alg».proof.Proof.SupportValue
import proofs.«151394_g64776696758729_cont_9to1_m_1304_18_alg».proof.Proof.AggValue

noncomputable section

namespace Cert.KernelIdeal.Bridge

open Cert.KernelIdeal Idealize.ShloMosaic Idealize.ShloMosaic.ValueIdx Gcn.Algebra
open Cert.KernelIdeal.SupportValue Cert.KernelIdeal.AggValue

/-- An entry of the support of finite features and weights is a real number. -/
theorem isReal_support (x : S10000x128.Idx → EReal) (w : S128x128.Idx → EReal)
    (hx : ∀ i, IsReal (x i)) (hw : ∀ i, IsReal (w i)) (k : Fin 10000) (q : Fin 128) :
    IsReal (Gcn.Spec.support x w k q) :=
  isReal_sum_mul _ _ (fun l => hx (ix2 k l)) (fun l => hw (ix2 l q))

/-- The left half of the pair is the support. -/
theorem pairAt_left (x : S10000x128.Idx → EReal) (w : S128x128.Idx → EReal) (k : Fin 10000) (q : Fin 128) (h : q.val < 256) :
    pairAt x w k ⟨q.val, h⟩ = Gcn.Spec.support x w k q := by
  unfold pairAt
  rw [dif_pos (show (⟨q.val, h⟩ : Fin 256).val < 128 from q.isLt)]

/-- The right half of the pair is the support less itself. -/
theorem pairAt_right (x : S10000x128.Idx → EReal) (w : S128x128.Idx → EReal) (k : Fin 10000) (q : Fin 128) (h : 128 + q.val < 256) :
    pairAt x w k ⟨128 + q.val, h⟩ = Gcn.Spec.support x w k q - Gcn.Spec.support x w k q := by
  unfold pairAt
  rw [dif_neg (show ¬ (⟨128 + q.val, h⟩ : Fin 256).val < 128 from by show ¬ 128 + q.val < 128; omega)]
  have e : (⟨(⟨128 + q.val, h⟩ : Fin 256).val - 128, by show 128 + q.val - 128 < 128; have := q.isLt; omega⟩ : Fin 128) = q :=
    Fin.ext (by show 128 + q.val - 128 = q.val; omega)
  rw [e]

/-- The composition of the two calls' functions is `a · (x · w)`. -/
theorem agg_pair (x : S10000x128.Idx → EReal) (a : S10000x10000.Idx → EReal) (w : S128x128.Idx → EReal)
    (hx : ∀ i, IsReal (x i)) (hw : ∀ i, IsReal (w i)) :
    agg a (pair x w) = Gcn.Spec.result x a w := by
  funext i
  obtain ⟨r, q, rfl⟩ : ∃ (r : Fin 10000) (q : Fin 128), i = ix2 r q := ⟨i 0, i 1, eq_ix2 i⟩
  show aggAt a (pair x w) r q = Gcn.Spec.resultAt x a w r q
  unfold aggAt Gcn.Spec.resultAt
  have hl : ∀ k : Fin 10000, pair x w (ix2 k ⟨q.val, by have := q.isLt; omega⟩) = Gcn.Spec.support x w k q :=
    fun k => pairAt_left x w k q _
  have hr : ∀ k : Fin 10000, pair x w (ix2 k ⟨128 + q.val, by have := q.isLt; omega⟩)
      = Gcn.Spec.support x w k q - Gcn.Spec.support x w k q :=
    fun k => pairAt_right x w k q _
  simp only [hl, hr]
  exact sum_mul_add_sum_mul_sub_self (fun k => a (ix2 r k)) (fun k => Gcn.Spec.support x w k q)
    (fun k => isReal_support x w hx hw k q)

end Cert.KernelIdeal.Bridge

end
-- ==== Proof.KernelValue.lean ====
/-
  The kernel's run, its result array named as the specification.

  The result array ends at the second call's function of what that call found; the adjacency array it
  found is the launch contents (the first call does not touch it), and the intermediate array it found is
  what the first call left: the pair of the launch features and weights. Composed, and with the features
  and the weights finite, that is `a · (x · w)` of the three launch arrays.
-/
import proofs.«151394_g64776696758729_cont_9to1_m_1304_18_alg».proof.Proof.ResultRun
import proofs.«151394_g64776696758729_cont_9to1_m_1304_18_alg».proof.Proof.Bridge

set_option maxRecDepth 16384

noncomputable section

namespace Cert.KernelIdeal.KernelValue

open Cert.KernelIdeal Cert.KernelIdeal.Gen Idealize.ShloMosaic Idealize.ShloMosaic.TcCoe Idealize.SL.Sem
open Gcn.Algebra

variable (m : (ℓ : Loc nD τ sig) → Buf (Elt Ideal) ℓ) (ρ : Dev nD → PrngReg)

/-- The intermediate array the second call finds is the pair of the launch features and weights. -/
theorem inter_eq (c : Dev nD) :
    V1 m ρ c main_v0 = SupportValue.pair (m ((c : Thread nD τ).loc main_arg0)) (m ((c : Thread nD τ).loc main_arg2)) :=
  (W1_arr m ρ c 2).trans (SupportValue.array_eq (V0 m ρ) c)

/-- The adjacency array the second call finds is the launch one. -/
theorem adj_eq (c : Dev nD) : V1 m ρ c main_arg1 = m ((c : Thread nD τ).loc main_arg1) :=
  W1_of_ne m ρ c main_arg1 (by decide)

/-- The result array after both calls is the specification of the launch arrays. -/
theorem result_eq (c : Dev nD)
    (hx : ∀ i, IsReal (m ((c : Thread nD τ).loc main_arg0) i)) (hw : ∀ i, IsReal (m ((c : Thread nD τ).loc main_arg2) i)) :
    W2 m ρ c (Proc.devRef .tc main_v1)
      = Gcn.Spec.result (m ((c : Thread nD τ).loc main_arg0)) (m ((c : Thread nD τ).loc main_arg1)) (m ((c : Thread nD τ).loc main_arg2)) :=
  (W2_arr m ρ c 2).trans ((AggValue.array_eq (V1 m ρ) c).trans
    ((congrArg₂ AggValue.agg (adj_eq m ρ c) (inter_eq m ρ c)).trans
      (Bridge.agg_pair _ _ _ hx hw)))

/-- Every weakly fair execution terminates without a fault, the result array at `a · (x · w)` of the launch
    arrays and the arguments unchanged — given finite features and weights. -/
theorem run (hfin : ∀ c : Dev nD, (∀ i, IsReal (m ((c : Thread nD τ).loc main_arg0) i)) ∧ (∀ i, IsReal (m ((c : Thread nD τ).loc main_arg2) i))) :
    θ_run defs (onTc (τ := τ) (main (F := Ideal))) ⟨m, fun _ => 0, ρ⟩ (fun r => ∀ c : Dev nD,
      r.2.mem ((c.tc : Thread nD τ).loc main_v1)
        = Gcn.Spec.result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (result_eq m ρ c (hfin c).1 (hfin c).2), (h c).2⟩)
    (ResultRun.run m ρ)

end Cert.KernelIdeal.KernelValue

end
-- ==== Proof.lean ====
/-
  A graph-convolution layer: `out = adj · (features · weight)`, features 10000 × 128, weight 128 × 128,
  adjacency 10000 × 10000.

  The kernel computes it in two pallas_calls. The first forms the support `s = features · weight` and stores
  it as a compensated pair of narrow-format halves `[hi | lo]`, `hi` the support rounded to the narrow
  format and `lo` the rounding residual `s - widen hi`. The second streams the adjacency array in 25 slabs
  of 400 rows, multiplies each slab into the 256-column pair in one matrix product, and adds the product's
  two halves. The reference is the two matrix products in the same order, `adj · (features · weight)`.

  At the extended reals a change of float format is the identity, so `hi = s` and `lo = s - s`. For finite
  features and weights every entry of `s` is a real number and `lo = 0`; a row of the adjacency array
  times zero is zero whatever the row holds, so the second half of the product adds nothing and the
  kernel's result is `adj · s` entry by entry — the reference's. No sum is reordered and no product is
  distributed: the one law used is `x - x = 0` for a real `x`, which is where the precondition (all inputs
  finite) is needed; it fails at the infinities.

  The three frames: the kernel's two programs run by the generated frame of the two calls in sequence; the
  reference by its generated run with the result forgotten. The idealization's one rewrite is the removal of
  the narrow-format round trip `widen (narrow s)` in the first call, stated by its rule.
-/
import proofs.«151394_g64776696758729_cont_9to1_m_1304_18_alg».proof.Defs
import proofs.«151394_g64776696758729_cont_9to1_m_1304_18_alg».proof.Proof.Gen.Kernel
import proofs.«151394_g64776696758729_cont_9to1_m_1304_18_alg».proof.Proof.Gen.Kernel.Skeleton
import proofs.«151394_g64776696758729_cont_9to1_m_1304_18_alg».proof.Proof.Gen.Kernel.Launch
import proofs.«151394_g64776696758729_cont_9to1_m_1304_18_alg».proof.Proof.Gen.Kernel.Points
import proofs.«151394_g64776696758729_cont_9to1_m_1304_18_alg».proof.Proof.Gen.Kernel.Frame
import proofs.«151394_g64776696758729_cont_9to1_m_1304_18_alg».proof.Proof.Gen.KernelIdeal
import proofs.«151394_g64776696758729_cont_9to1_m_1304_18_alg».proof.Proof.Gen.KernelIdeal.Skeleton
import proofs.«151394_g64776696758729_cont_9to1_m_1304_18_alg».proof.Proof.Gen.KernelIdeal.Launch
import proofs.«151394_g64776696758729_cont_9to1_m_1304_18_alg».proof.Proof.Gen.KernelIdeal.Points
import proofs.«151394_g64776696758729_cont_9to1_m_1304_18_alg».proof.Proof.Gen.KernelIdeal.Frame
import proofs.«151394_g64776696758729_cont_9to1_m_1304_18_alg».proof.Proof.Gen.ReferenceIdeal
import proofs.«151394_g64776696758729_cont_9to1_m_1304_18_alg».proof.Proof.Gen.Pre_finite_inputs
import proofs.«151394_g64776696758729_cont_9to1_m_1304_18_alg».proof.Proof.Gen.ReferenceIdeal.Run
import proofs.«151394_g64776696758729_cont_9to1_m_1304_18_alg».proof.Proof.Gen.ReferenceIdeal.Read
import proofs.«151394_g64776696758729_cont_9to1_m_1304_18_alg».proof.Proof.RefValue
import proofs.«151394_g64776696758729_cont_9to1_m_1304_18_alg».proof.Proof.Finite
import proofs.«151394_g64776696758729_cont_9to1_m_1304_18_alg».proof.Proof.KernelValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The one rewrite: widening after narrowing is the identity at the extended reals, and the rounding
    through the narrow format at the word level. -/
theorem preserves : Cert.preserves_Kernel_KernelIdeal :=
  IdealRules.truncf_extf.statement _ .f32 .bf16

/-- Both programs end with the result array at `adj · (features · weight)` of the arguments: the kernel by
    its two calls composed (finite features and weights), the reference by its two products read as sums. -/
theorem algebraic : Cert.algebraic_KernelIdeal_ReferenceIdeal := by
  intro m ρ m' ρ' hpre hagree
  have hfin := fun c => Cert.Pre_finite_inputs.Finite.of_pre _ _ _ (hpre c)
  refine ⟨fun c => Gcn.Spec.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KernelValue.run m ρ (fun c => ⟨(hfin c).1, (hfin c).2.2⟩), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v1_eq, Cert.ReferenceIdeal.RefValue.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
